-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x35 : Shape := ⟨2, ![2000000, 35]⟩
abbrev S64x35 : Shape := ⟨2, ![64, 35]⟩
abbrev S64x1 : Shape := ⟨2, ![64, 1]⟩
abbrev S64 : Shape := ⟨1, ![64]⟩
abbrev S13x64 : Shape := ⟨2, ![13, 64]⟩
abbrev S13x1 : Shape := ⟨2, ![13, 1]⟩
abbrev S13 : Shape := ⟨1, ![13]⟩
abbrev S_ : Shape := ⟨0, ![]⟩

class Facts : Prop where
  bcast_S_S2000000x35 : S_.BroadcastsInDim S2000000x35 (![] : Fin 0 → Fin S2000000x35.rank)
  reducesTo_S2000000x35_S_d0_1 : S2000000x35.ReducesTo [0, 1] S_
  h_S_ : 0 < S_.numel
  bcast_S_S64x35 : S_.BroadcastsInDim S64x35 (![] : Fin 0 → Fin S64x35.rank)
  reducesTo_S64x35_S_d0_1 : S64x35.ReducesTo [0, 1] S_
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_
  bcast_S_S13x64 : S_.BroadcastsInDim S13x64 (![] : Fin 0 → Fin S13x64.rank)
  reducesTo_S13x64_S_d0_1 : S13x64.ReducesTo [0, 1] S_
  bcast_S_S13x1 : S_.BroadcastsInDim S13x1 (![] : Fin 0 → Fin S13x1.rank)
  reducesTo_S13x1_S_d0_1 : S13x1.ReducesTo [0, 1] S_
  bcast_S_S13 : S_.BroadcastsInDim S13 (![] : Fin 0 → Fin S13.rank)
  reducesTo_S13_S_d0 : S13.ReducesTo [0] S_

variable [Facts]

def fn_part1 {F : FTy → Type} [FloatOps F] (main_arg4 : FVec F S13x64 .f32) (main_arg5 : FVec F S13x1 .f32) (main_arg6 : FVec F S13 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S13x64 .f32 := Host.absf main_arg4
  let main_cst_6 : FVec F S_ .f32 := constant S_ .f32 0x7F800000#32
  let main_v20 : FVec F S13x64 .f32 := broadcastInDim S13x64 ![] bcast_S_S13x64 main_cst_6
  let main_v21 : IVec S13x64 1 := cmpf .olt main_v19 main_v20
  let main_c_7 : IVec S_ 1 := constantI S_ 1 1#1
  let main_v22 : IVec S_ 1 := (fun x v => Host.reduce IntOp.andi x v reducesTo_S13x64_S_d0_1 h_S_) main_v21 main_c_7
  let main_v23 : IVec S_ 1 := andi main_v18 main_v22
  let main_v24 : FVec F S13x1 .f32 := Host.absf main_arg5
  let main_cst_8 : FVec F S_ .f32 := constant S_ .f32 0x7F800000#32
  let main_v25 : FVec F S13x1 .f32 := broadcastInDim S13x1 ![] bcast_S_S13x1 main_cst_8
  let main_v26 : IVec S13x1 1 := cmpf .olt main_v24 main_v25
  let main_c_9 : IVec S_ 1 := constantI S_ 1 1#1
  let main_v27 : IVec S_ 1 := (fun x v => Host.reduce IntOp.andi x v reducesTo_S13x1_S_d0_1 h_S_) main_v26 main_c_9
  let main_v28 : IVec S_ 1 := andi main_v23 main_v27
  let main_v29 : FVec F S13 .f32 := Host.absf main_arg6
  let main_cst_10 : FVec F S_ .f32 := constant S_ .f32 0x7F800000#32
  let main_v30 : FVec F S13 .f32 := broadcastInDim S13 ![] bcast_S_S13 main_cst_10
  let main_v31 : IVec S13 1 := cmpf .olt main_v29 main_v30
  let main_c_11 : IVec S_ 1 := constantI S_ 1 1#1
  let main_v32 : IVec S_ 1 := (fun x v => Host.reduce IntOp.andi x v reducesTo_S13_S_d0 h_S_) main_v31 main_c_11
  let main_v33 : IVec S_ 1 := andi main_v28 main_v32
  main_v33

def fn {F : FTy → Type} [FloatOps F] (main_arg0 : FVec F S2000000x35 .f32) (main_arg1 : FVec F S64x35 .f32) (main_arg2 : FVec F S64x1 .f32) (main_arg3 : FVec F S64 .f32) (main_arg4 : FVec F S13x64 .f32) (main_arg5 : FVec F S13x1 .f32) (main_arg6 : FVec F S13 .f32) : IVec S_ 1 :=
  let main_v0 : FVec F S2000000x35 .f32 := Host.absf main_arg0
  let main_cst : FVec F S_ .f32 := constant S_ .f32 0x7F800000#32
  let main_v1 : FVec F S2000000x35 .f32 := broadcastInDim S2000000x35 ![] bcast_S_S2000000x35 main_cst
  let main_v2 : IVec S2000000x35 1 := cmpf .olt main_v0 main_v1
  let main_c : IVec S_ 1 := constantI S_ 1 1#1
  let main_v3 : IVec S_ 1 := (fun x v => Host.reduce IntOp.andi x v reducesTo_S2000000x35_S_d0_1 h_S_) main_v2 main_c
  let main_v4 : FVec F S64x35 .f32 := Host.absf main_arg1
  let main_cst_0 : FVec F S_ .f32 := constant S_ .f32 0x7F800000#32
  let main_v5 : FVec F S64x35 .f32 := broadcastInDim S64x35 ![] bcast_S_S64x35 main_cst_0
  let main_v6 : IVec S64x35 1 := cmpf .olt main_v4 main_v5
  let main_c_1 : IVec S_ 1 := constantI S_ 1 1#1
  let main_v7 : IVec S_ 1 := (fun x v => Host.reduce IntOp.andi x v reducesTo_S64x35_S_d0_1 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S2000000x35 : Shape := ⟨2, ![2000000, 35]⟩
abbrev S64x35 : Shape := ⟨2, ![64, 35]⟩
abbrev S64x1 : Shape := ⟨2, ![64, 1]⟩
abbrev S64 : Shape := ⟨1, ![64]⟩
abbrev S13x64 : Shape := ⟨2, ![13, 64]⟩
abbrev S13x1 : Shape := ⟨2, ![13, 1]⟩
abbrev S13 : Shape := ⟨1, ![13]⟩
abbrev S_ : Shape := ⟨0, ![]⟩
abbrev S35x64 : Shape := ⟨2, ![35, 64]⟩
abbrev S64x13 : Shape := ⟨2, ![64, 13]⟩
abbrev S1x64 : Shape := ⟨2, ![1, 64]⟩
abbrev S1x13 : Shape := ⟨2, ![1, 13]⟩
abbrev S2000000x13 : Shape := ⟨2, ![2000000, 13]⟩
abbrev S16000x35 : Shape := ⟨2, ![16000, 35]⟩
abbrev S16000x13 : Shape := ⟨2, ![16000, 13]⟩
abbrev S2000x35 : Shape := ⟨2, ![2000, 35]⟩
abbrev S2000x64 : Shape := ⟨2, ![2000, 64]⟩
abbrev S2000x13 : Shape := ⟨2, ![2000, 13]⟩

abbrev nBuf : Space → Nat
  | .hbm => 32
  | .vmem => 8
  | .smem => 0
  | _ => 0

abbrev bufTy : (tb : Table) → Fin (tcTables nBuf tb) → BufTy
  | .hbm, ⟨0, _⟩ => ⟨S2000000x35, .f32⟩
  | .hbm, ⟨1, _⟩ => ⟨S64x35, .f32⟩
  | .hbm, ⟨2, _⟩ => ⟨S64x1, .f32⟩
  | .hbm, ⟨3, _⟩ => ⟨S64, .f32⟩
  | .hbm, ⟨4, _⟩ => ⟨S13x64, .f32⟩
  | .hbm, ⟨5, _⟩ => ⟨S13x1, .f32⟩
  | .hbm, ⟨6, _⟩ => ⟨S13, .f32⟩
  | .hbm, ⟨7, _⟩ => ⟨S64x35, .f32⟩
  | .hbm, ⟨8, _⟩ => ⟨S64x35, .f32⟩
  | .hbm, ⟨9, _⟩ => ⟨S64x35, .f32⟩
  | .hbm, ⟨10, _⟩ => ⟨S_, .f32⟩
  | .hbm, ⟨11, _⟩ => ⟨S64, .f32⟩
  | .hbm, ⟨12, _⟩ => ⟨S64x1, .f32⟩
  | .hbm, ⟨13, _⟩ => ⟨S64x1, .f32⟩
  | .hbm, ⟨14, _⟩ => ⟨S64x35, .f32⟩
  | .hbm, ⟨15, _⟩ => ⟨S64x35, .f32⟩
  | .hbm, ⟨16, _⟩ => ⟨S13x64, .f32⟩
  | .hbm, ⟨17, _⟩ => ⟨S13x64, .f32⟩
  | .hbm, ⟨18, _⟩ => ⟨S13x64, .f32⟩
  | .hbm, ⟨19, _⟩ => ⟨S_, .f32⟩
  | .hbm, ⟨20, _⟩ => ⟨S13, .f32⟩
  | .hbm, ⟨21, _⟩ => ⟨S13x1, .f32⟩
  | .hbm, ⟨22, _⟩ => ⟨S13x1, .f32⟩
  | .hbm, ⟨23, _⟩ => ⟨S13x64, .f32⟩
  | .hbm, ⟨24, _⟩ => ⟨S13x64, .f32⟩
  | .hbm, ⟨25, _⟩ => ⟨S35x64, .f32⟩
  | .hbm, ⟨26, _⟩ => ⟨S35x64, .bf16⟩
  | .hbm, ⟨27, _⟩ => ⟨S64x13, .f32⟩
  | .hbm, ⟨28, _⟩ => ⟨S64x13, .bf16⟩
  | .hbm, ⟨29, _⟩ => ⟨S1x64, .f32⟩
  | .hbm, ⟨30, _⟩ => ⟨S1x13, .f32⟩
  | .hbm, ⟨31, _⟩ => ⟨S2000000x13, .f32⟩
  | .local _ .vmem, ⟨0, _⟩ => ⟨S16000x35, .f32⟩
  | .local _ .vmem, ⟨1, _⟩ => ⟨S16000x35, .f32⟩
  | .local _ .vmem, ⟨2, _⟩ => ⟨S35x64, .bf16⟩
  | .local _ .vmem, ⟨3, _⟩ => ⟨S1x64, .f32⟩
  | .local _ .vmem, ⟨4, _⟩ => ⟨S64x13, .bf16⟩
  | .local _ .vmem, ⟨5, _⟩ => ⟨S1x13, .f32⟩
  | .local _ .vmem, ⟨6, _⟩ => ⟨S16000x13, .f32⟩
  | .local _ .vmem, ⟨7, _⟩ => ⟨S16000x13, .f32⟩
  | _, _ => ⟨S2000000x35, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c2000_i32 : BitVec 32 := 2000#32
  let v9 : BitVec 32 := Scalar.muli arg7 c2000_i32
  v9
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c2000_i32 : BitVec 32 := 2000#32
  let v9 : BitVec 32 := Scalar.muli arg7 c2000_i32
  let v10 : BitVec 32 := v9
  let v11 : Index := Scalar.indexCast v10
  let c0_8 : Index := 0#32
  ![v11.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c2000_i32 : BitVec 32 := 2000#32
  let v9 : BitVec 32 := Scalar.muli arg7 c2000_i32
  let v10 : BitVec 32 := v9
  let v39 : Index := Scalar.indexCast v10
  let c0_14 : Index := 0#32
  ![v39.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x35 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S35x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x13 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x13 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x13 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S64x1_S64x35_0_1 : S64x1.BroadcastsInDim S64x35 (![0, 1] : Fin 2 → Fin S64x35.rank)
  reducesTo_S64x35_S64_d1 : S64x35.ReducesTo [1] S64
  h_S_ : 0 < S_.numel
  bcast_S64_S64x1_0 : S64.BroadcastsInDim S64x1 (![0] : Fin 1 → Fin S64x1.rank)
  bcast_S13x1_S13x64_0_1 : S13x1.BroadcastsInDim S13x64 (![0, 1] : Fin 2 → Fin S13x64.rank)
  reducesTo_S13x64_S13_d1 : S13x64.ReducesTo [1] S13
  bcast_S13_S13x1_0 : S13.BroadcastsInDim S13x1 (![0] : Fin 1 → Fin S13x1.rank)
  transposes_S64x35_S35x64_1_0 : S64x35.Transposes [1, 0] S35x64
  bitsLt_bf16_f32 : FTy.bits .bf16 < FTy.bits .f32
  transposes_S13x64_S64x13_1_0 : S13x64.Transposes [1, 0] S64x13
  shapeCasts_S64_S1x64 : S64.ShapeCasts S1x64
  shapeCasts_S13_S1x13 : S13.ShapeCasts S1x13
  inb_S35x64_S35x64_0_0 : ∀ a, (![0, 0] : Fin 2 → Nat) a + S35x64.size a ≤ S35x64.size a
  h_S35x64 : 0 < S35x64.numel
  shapeCasts_S35x64_S35x64 : S35x64.ShapeCasts S35x64
  inb_S64x13_S64x13_0_0 : ∀ a, (![0, 0] : Fin 2 → Nat) a + S64x13.size a ≤ S64x13.size a
  h_S64x13 : 0 < S64x13.numel
  shapeCasts_S64x13_S64x13 : S64x13.ShapeCasts S64x13
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x13_S1x13_0_0 : ∀ a, (![0, 0] : Fin 2 → Nat) a + S1x13.size a ≤ S1x13.size a
  h_S1x13 : 0 < S1x13.numel
  shapeCasts_S1x13_S1x13 : S1x13.ShapeCasts S1x13
  h_S2000x35 : 0 < S2000x35.numel
  broadcasts_S1x64_S2000x64 : S1x64.Broadcasts S2000x64
  broadcasts_S1x13_S2000x13 : S1x13.Broadcasts S2000x13
  h_S2000x13 : 0 < S2000x13.numel
  dot_S2000x35_S35x64_S2000x64_1_0_0_1_n_n_wf : DotDims.WF S2000x35 S35x64 S2000x64 [1] [0] [0] [1] [] []
  dot_S2000x64_S64x13_S2000x13_1_0_0_1_n_n_wf : DotDims.WF S2000x64 S64x13 S2000x13 [1] [0] [0] [1] [] []
  hrank0 : 0 < grid0.rank
  k0_t1_ok : k0_t1_loop.OK
  k0_mult1_dvd : ∀ k0_t1 : Fin k0_t1_loop.trips, 2000 ∣ (k0_mult1 k0_t1).toNat
  k0_off1_inb : ∀ k0_t1 : Fin k0_t1_loop.trips, ∀ a, (k0_off1 k0_t1) a + S2000x35.size a ≤ S16000x35.size a
  k0_off2_inb : ∀ k0_t1 : Fin k0_t1_loop.trips, ∀ a, (k0_off2 k0_t1) a + S2000x13.size a ≤ S16000x13.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x35.size a ≤ S2000000x35.size a
  hwx0_0 : ∀ i : grid0.Coords, EltTy.bits .f32 = 32 ∨ (Rect.block (s := S2000000x35) S16000x35.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S35x64.size a ≤ S35x64.size a
  hwx0_1 : ∀ i : grid0.Coords, EltTy.bits .bf16 = 32 ∨ (Rect.block (s := S35x64) S35x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x13.size a ≤ S64x13.size a
  hwx0_3 : ∀ i : grid0.Coords, EltTy.bits .bf16 = 32 ∨ (Rect.block (s := S64x13) S64x13.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x13.size a ≤ S1x13.size a
  hwx0_4 : ∀ i : grid0.Coords, EltTy.bits .f32 = 32 ∨ (Rect.block (s := S1x13) S1x13.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x13.size a ≤ S2000000x13.size a
  hwx0_5 : ∀ i : grid0.Coords, EltTy.bits .f32 = 32 ∨ (Rect.block (s := S2000000x13) S16000x13.size (cc0_transform_5 i) (hinb0_5 i)).WholeWords (EltTy.packing .f32)

variable [Facts₀]

def dot_S2000x35_S35x64_S2000x64_1_0_0_1_n_n : DotDims S2000x35 S35x64 S2000x64 where
  lhsContracting := [1]
  rhsContracting := [0]
  lhsNonContracting := [0]
  rhsNonContracting := [1]
  lhsBatch := []
  rhsBatch := []
  wf := dot_S2000x35_S35x64_S2000x64_1_0_0_1_n_n_wf
def dot_S2000x64_S64x13_S2000x13_1_0_0_1_n_n : DotDims S2000x64 S64x13 S2000x13 where
  lhsContracting := [1]
  rhsContracting := [0]
  lhsNonContracting := [0]
  rhsNonContracting := [1]
  lhsBatch := []
  rhsBatch := []
  wf := dot_S2000x64_S64x13_S2000x13_1_0_0_1_n_n_wf

abbrev win0_0 : Pipeline.Window sig grid0 :=
  Pipeline.Window.ofSpec (Memref.whole main_arg0) S16000x35.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S35x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x13.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x13.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S16000x13.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000000x35 : Shape := ⟨2, ![2000000, 35]⟩
abbrev S64x35 : Shape := ⟨2, ![64, 35]⟩
abbrev S64x1 : Shape := ⟨2, ![64, 1]⟩
abbrev S64 : Shape := ⟨1, ![64]⟩
abbrev S13x64 : Shape := ⟨2, ![13, 64]⟩
abbrev S13x1 : Shape := ⟨2, ![13, 1]⟩
abbrev S13 : Shape := ⟨1, ![13]⟩
abbrev S_ : Shape := ⟨0, ![]⟩
abbrev S35x64 : Shape := ⟨2, ![35, 64]⟩
abbrev S2000000x64 : Shape := ⟨2, ![2000000, 64]⟩
abbrev S1x64 : Shape := ⟨2, ![1, 64]⟩
abbrev S64x13 : Shape := ⟨2, ![64, 13]⟩
abbrev S2000000x13 : Shape := ⟨2, ![2000000, 13]⟩
abbrev S1x13 : Shape := ⟨2, ![1, 13]⟩

abbrev nBuf : Space → Nat
  | .hbm => 55
  | .vmem => 0
  | .smem => 0
  | _ => 0

abbrev bufTy : (tb : Table) → Fin (tcTables nBuf tb) → BufTy
  | .hbm, ⟨0, _⟩ => ⟨S2000000x35, .f32⟩
  | .hbm, ⟨1, _⟩ => ⟨S64x35, .f32⟩
  | .hbm, ⟨2, _⟩ => ⟨S64x1, .f32⟩
  | .hbm, ⟨3, _⟩ => ⟨S64, .f32⟩
  | .hbm, ⟨4, _⟩ => ⟨S13x64, .f32⟩
  | .hbm, ⟨5, _⟩ => ⟨S13x1, .f32⟩
  | .hbm, ⟨6, _⟩ => ⟨S13, .f32⟩
  | .hbm, ⟨7, _⟩ => ⟨S64x35, .f32⟩
  | .hbm, ⟨8, _⟩ => ⟨S64x35, .f32⟩
  | .hbm, ⟨9, _⟩ => ⟨S64x35, .f32⟩
  | .hbm, ⟨10, _⟩ => ⟨S_, .f32⟩
  | .hbm, ⟨11, _⟩ => ⟨S64, .f32⟩
  | .hbm, ⟨12, _⟩ => ⟨S64x1, .f32⟩
  | .hbm, ⟨13, _⟩ => ⟨S64x1, .f32⟩
  | .hbm, ⟨14, _⟩ => ⟨S64x35, .f32⟩
  | .hbm, ⟨15, _⟩ => ⟨S64x35, .f32⟩
  | .hbm, ⟨16, _⟩ => ⟨S13x64, .f32⟩
  | .hbm, ⟨17, _⟩ => ⟨S13x64, .f32⟩
  | .hbm, ⟨18, _⟩ => ⟨S13x64, .f32⟩
  | .hbm, ⟨19, _⟩ => ⟨S_, .f32⟩
  | .hbm, ⟨20, _⟩ => ⟨S13, .f32⟩
  | .hbm, ⟨21, _⟩ => ⟨S13x1, .f32⟩
  | .hbm, ⟨22, _⟩ => ⟨S13x1, .f32⟩
  | .hbm, ⟨23, _⟩ => ⟨S13x64, .f32⟩
  | .hbm, ⟨24, _⟩ => ⟨S13x64, .f32⟩
  | .hbm, ⟨25, _⟩ => ⟨S35x64, .f32⟩
  | .hbm, ⟨26, _⟩ => ⟨S2000000x64, .f32⟩
  | .hbm, ⟨27, _⟩ => ⟨S1x64, .f32⟩
  | .hbm, ⟨28, _⟩ => ⟨S2000000x64, .f32⟩
  | .hbm, ⟨29, _⟩ => ⟨S2000000x64, .f32⟩
  | .hbm, ⟨30, _⟩ => ⟨S_, .f32⟩
  | .hbm, ⟨31, _⟩ => ⟨S2000000x64, .f32⟩
  | .hbm, ⟨32, _⟩ => ⟨S2000000x64, .f32⟩
  | .hbm, ⟨33, _⟩ => ⟨S_, .f32⟩
  | .hbm, ⟨34, _⟩ => ⟨S2000000x64, .f32⟩
  | .hbm, ⟨35, _⟩ => ⟨S2000000x64, .f32⟩
  | .hbm, ⟨36, _⟩ => ⟨S2000000x64, .f32⟩
  | .hbm, ⟨37, _⟩ => ⟨S2000000x64, .f32⟩
  | .hbm, ⟨38, _⟩ => ⟨S2000000x64, .i1⟩
  | .hbm, ⟨39, _⟩ => ⟨S2000000x64, .f32⟩
  | .hbm, ⟨40, _⟩ => ⟨S2000000x64, .f32⟩
  | .hbm, ⟨41, _⟩ => ⟨S2000000x64, .f32⟩
  | .hbm, ⟨42, _⟩ => ⟨S2000000x64, .f32⟩
  | .hbm, ⟨43, _⟩ => ⟨S2000000x64, .f32⟩
  | .hbm, ⟨44, _⟩ => ⟨S2000000x64, .f32⟩
  | .hbm, ⟨45, _⟩ => ⟨S2000000x64, .f32⟩
  | .hbm, ⟨46, _⟩ => ⟨S2000000x64, .f32⟩
  | .hbm, ⟨47, _⟩ => ⟨S_, .f32⟩
  | .hbm, ⟨48, _⟩ => ⟨S2000000x64, .f32⟩
  | .hbm, ⟨49, _⟩ => ⟨S2000000x64, .f32⟩
  | .hbm, ⟨50, _⟩ => ⟨S64x13, .f32⟩
  | .hbm, ⟨51, _⟩ => ⟨S2000000x13, .f32⟩
  | .hbm, ⟨52, _⟩ => ⟨S1x13, .f32⟩
  | .hbm, ⟨53, _⟩ => ⟨S2000000x13, .f32⟩
  | .hbm, ⟨54, _⟩ => ⟨S2000000x13, .f32⟩
  | _, _ => ⟨S2000000x35, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_call2_cst : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_v17 : Ref sig .tc := ⟨.hbm, 46, rfl⟩
abbrev main_cst_0 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩

abbrev nD : Nat := 1
abbrev τ : Topo := Topo.v7x

variable {F : FTy → Type} [FloatOps F]

class Facts₀ : Prop where
  bcast_S64x1_S64x35_0_1 : S64x1.BroadcastsInDim S64x35 (![0, 1] : Fin 2 → Fin S64x35.rank)
  reducesTo_S64x35_S64_d1 : S64x35.ReducesTo [1] S64
  h_S_ : 0 < S_.numel
  bcast_S64_S64x1_0 : S64.BroadcastsInDim S64x1 (![0] : Fin 1 → Fin S64x1.rank)
  bcast_S13x1_S13x64_0_1 : S13x1.BroadcastsInDim S13x64 (![0, 1] : Fin 2 → Fin S13x64.rank)
  reducesTo_S13x64_S13_d1 : S13x64.ReducesTo [1] S13
  bcast_S13_S13x1_0 : S13.BroadcastsInDim S13x1 (![0] : Fin 1 → Fin S13x1.rank)
  transposes_S64x35_S35x64_1_0 : S64x35.Transposes [1, 0] S35x64
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  transposes_S13x64_S64x13_1_0 : S13x64.Transposes [1, 0] S64x13
  bcast_S13_S1x13_1 : S13.BroadcastsInDim S1x13 (![1] : Fin 1 → Fin S1x13.rank)
  bcast_S1x13_S2000000x13_0_1 : S1x13.BroadcastsInDim S2000000x13 (![0, 1] : Fin 2 → Fin S2000000x13.rank)
  dot_S2000000x35_S35x64_S2000000x64_1_0_0_1_n_n_wf : DotDims.WF S2000000x35 S35x64 S2000000x64 [1] [0] [0] [1] [] []
  dot_S2000000x64_S64x13_S2000000x13_1_0_0_1_n_n_wf : DotDims.WF S2000000x64 S64x13 S2000000x13 [1] [0] [0] [1] [] []

variable [Facts₀]

def dot_S2000000x35_S35x64_S2000000x64_1_0_0_1_n_n : DotDims S2000000x35 S35x64 S2000000x64 where
  lhsContracting := [1]
  rhsContracting := [0]
  lhsNonContracting := [0]
  rhsNonContracting := [1]
  lhsBatch := []
  rhsBatch := []
  wf := dot_S2000000x35_S35x64_S2000000x64_1_0_0_1_n_n_wf
def dot_S2000000x64_S64x13_S2000000x13_1_0_0_1_n_n : DotDims S2000000x64 S64x13 S2000000x13 where
  lhsContracting := [1]
  rhsContracting := [0]
  lhsNonContracting := [0]
  rhsNonContracting := [1]
  lhsBatch := []
  rhsBatch := []
  wf := dot_S2000000x64_S64x13_S2000000x13_1_0_0_1_n_n_wf

class Facts : Prop extends Facts₀ where

variable [Facts]
-- ==== Proof.KernelPieces.lean ====
/-
  What the body's stores leave in the output block, as a list of pieces.  The body walks the 16000-row block in
  eight chunks of 2000 rows: trip k loads rows 2000k … 2000k + 1999 of the input block and stores, at the same
  rows of the output block, the chunk's payload of that load and of the four resident blocks.  So every piece of
  the list the run finds is, for some trip k, that one store; and the resident blocks, loaded whole at the top of
  the body, are the staging buffers' contents.
-/
import proofs.«178618_j103079215178_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

/-- Trip k's store: rows 2000k … of the output block receive the payload of rows 2000k … of the input block. -/
abbrev tripPiece (arg1 : Memref sig .tc .vmem S16000x35 .f32) (v0 : Vec F S35x64 .bf16) (v2 : Vec F S64x13 .bf16)
    (v4 : Vec F S1x64 .f32) (v6 : Vec F S1x13 .f32) (X : BufTy.Contents (Elt F) arg1.view.ty) (k : Fin k0_t1_loop.trips) :
    View.Piece (Elt F) S16000x13 .f32 :=
  ⟨Rect.unit (s := S16000x13) (k0_off2 k) S2000x13.size (k0_off2_inb k),
    k0_pay1 v0 v2 v4 v6 (View.readAt (Elt F) arg1.view (Rect.unit (s := S16000x35) (k0_off1 k) S2000x35.size (k0_off1_inb k)).toLoadRect X)⟩

/-- One trip writes exactly that piece. -/
theorem tripL_eq (𝒱 : Variants) (c : Dev nD) (bd : Option 𝒱.V) (i : grid0.Coords) (arg1 : Memref sig .tc .vmem S16000x35 .f32) (harg1 : arg1.IsWhole) (arg2 : Memref sig .tc .vmem S35x64 .bf16) (harg2 : arg2.IsWhole) (arg3 : Memref sig .tc .vmem S1x64 .f32) (harg3 : arg3.IsWhole) (arg4 : Memref sig .tc .vmem S64x13 .bf16) (harg4 : arg4.IsWhole) (arg5 : Memref sig .tc .vmem S1x13 .f32) (harg5 : arg5.IsWhole) (arg6 : Memref sig .tc .vmem S16000x13 .f32) (harg6 : arg6.IsWhole)
    (v0 : Vec F S35x64 .bf16) (v2 : Vec F S64x13 .bf16) (v4 : Vec F S1x64 .f32) (v6 : Vec F S1x13 .f32)
    (X : BufTy.Contents (Elt F) arg1.view.ty) (k : Fin k0_t1_loop.trips) :
    tripL_k0_t1 (F := F) 𝒱 c bd i arg1 harg1 arg2 harg2 arg3 harg3 arg4 harg4 arg5 harg5 arg6 harg6 v0 v2 v4 v6 X k = [tripPiece arg1 v0 v2 v4 v6 X k] := by
  unfold tripL_k0_t1 trip_k0_t1
  rfl

/-- Every piece written by the first n trips is some trip's store. -/
theorem mem_pb (𝒱 : Variants) (c : Dev nD) (bd : Option 𝒱.V) (i : grid0.Coords) (arg1 : Memref sig .tc .vmem S16000x35 .f32) (harg1 : arg1.IsWhole) (arg2 : Memref sig .tc .vmem S35x64 .bf16) (harg2 : arg2.IsWhole) (arg3 : Memref sig .tc .vmem S1x64 .f32) (harg3 : arg3.IsWhole) (arg4 : Memref sig .tc .vmem S64x13 .bf16) (harg4 : arg4.IsWhole) (arg5 : Memref sig .tc .vmem S1x13 .f32) (harg5 : arg5.IsWhole) (arg6 : Memref sig .tc .vmem S16000x13 .f32) (harg6 : arg6.IsWhole)
    (v0 : Vec F S35x64 .bf16) (v2 : Vec F S64x13 .bf16) (v4 : Vec F S1x64 .f32) (v6 : Vec F S1x13 .f32)
    (X : BufTy.Contents (Elt F) arg1.view.ty) (n : ℕ) (p : View.Piece (Elt F) S16000x13 .f32)
    (hp : p ∈ pb_k0_t1 (F := F) 𝒱 c bd i arg1 harg1 arg2 harg2 arg3 harg3 arg4 harg4 arg5 harg5 arg6 harg6 v0 v2 v4 v6 X n) :
    ∃ k : Fin k0_t1_loop.trips, p = tripPiece arg1 v0 v2 v4 v6 X k := by
  induction n with
  | zero =>
    rw [pb_k0_t1.eq_1] at hp
    exact absurd hp List.not_mem_nil
  | succ n ih =>
    rw [pb_k0_t1.eq_2] at hp
    unfold pb_k0_t1Step at hp
    split at hp
    · rcases List.mem_append.mp hp with h | h
      · rw [tripL_eq, List.mem_singleton] at h
        exact ⟨_, h⟩
      · exact ih h
    · exact ih hp

theorem hz : (![0, 0] : Fin 2 → Nat) = fun _ => 0 := funext fun a => by fin_cases a <;> rfl

/-- The list the whole body's run finds is the loop's, over the staging buffers' contents. -/
theorem run_pieces (c : Dev nD) (i : grid0.Coords) (arg1 : Memref sig .tc .vmem S16000x35 .f32) (harg1 : arg1.IsWhole) (arg2 : Memref sig .tc .vmem S35x64 .bf16) (harg2 : arg2.IsWhole) (arg3 : Memref sig .tc .vmem S1x64 .f32) (harg3 : arg3.IsWhole) (arg4 : Memref sig .tc .vmem S64x13 .bf16) (harg4 : arg4.IsWhole) (arg5 : Memref sig .tc .vmem S1x13 .f32) (harg5 : arg5.IsWhole) (arg6 : Memref sig .tc .vmem S16000x13 .f32) (harg6 : arg6.IsWhole)
    (x0 : Vec F S16000x35 .f32) (x1 : Vec F S35x64 .bf16) (x2 : Vec F S1x64 .f32) (x3 : Vec F S64x13 .bf16) (x4 : Vec F S1x13 .f32) :
    ∃ n : ℕ, (kernelRun0_A (F := F) c i arg1 harg1 arg2 harg2 arg3 harg3 arg4 harg4 arg5 harg5 arg6 harg6 x0 x1 x2 x3 x4).1
      = pb_k0_t1 (F := F) Variants.none c none i arg1 harg1 arg2 harg2 arg3 harg3 arg4 harg4 arg5 harg5 arg6 harg6 x1 x3 x2 x4 (harg1.unread x0) n := by
  refine ⟨k0_t1_loop.trips, ?_⟩
  unfold kernelRun0_A
  dsimp only
  simp only [View.readAt_eq_ld, harg2.read_unread, harg3.read_unread, harg4.read_unread, harg5.read_unread,
    View.ld_unit_zero (S := S35x64) hz, View.ld_unit_zero (S := S64x13) hz, View.ld_unit_zero (S := S1x64) hz,
    View.ld_unit_zero (S := S1x13) hz]

/-- So every piece of the whole body's list is some trip's store, over the staging buffers' contents. -/
theorem mem_run (c : Dev nD) (i : grid0.Coords) (arg1 : Memref sig .tc .vmem S16000x35 .f32) (harg1 : arg1.IsWhole) (arg2 : Memref sig .tc .vmem S35x64 .bf16) (harg2 : arg2.IsWhole) (arg3 : Memref sig .tc .vmem S1x64 .f32) (harg3 : arg3.IsWhole) (arg4 : Memref sig .tc .vmem S64x13 .bf16) (harg4 : arg4.IsWhole) (arg5 : Memref sig .tc .vmem S1x13 .f32) (harg5 : arg5.IsWhole) (arg6 : Memref sig .tc .vmem S16000x13 .f32) (harg6 : arg6.IsWhole)
    (x0 : Vec F S16000x35 .f32) (x1 : Vec F S35x64 .bf16) (x2 : Vec F S1x64 .f32) (x3 : Vec F S64x13 .bf16) (x4 : Vec F S1x13 .f32)
    (p : View.Piece (Elt F) S16000x13 .f32) (hp : p ∈ (kernelRun0_A (F := F) c i arg1 harg1 arg2 harg2 arg3 harg3 arg4 harg4 arg5 harg5 arg6 harg6 x0 x1 x2 x3 x4).1) :
    ∃ k : Fin k0_t1_loop.trips, p = tripPiece arg1 x1 x3 x2 x4 (harg1.unread x0) k := by
  obtain ⟨n, hn⟩ := run_pieces c i arg1 harg1 arg2 harg2 arg3 harg3 arg4 harg4 arg5 harg5 arg6 harg6 x0 x1 x2 x3 x4
  rw [hn] at hp
  exact mem_pb _ c _ i arg1 harg1 arg2 harg2 arg3 harg3 arg4 harg4 arg5 harg5 arg6 harg6 x1 x3 x2 x4 _ n p hp

end Cert.KernelIdeal.Pieces

end
-- ==== Proof.MlpSpec.lean ====
/-
  The function both programs compute, entry by entry, on the extended reals: a two-layer perceptron
  35 → 64 → 13 whose hidden activation is the softplus of sharpness 100,

      out(r, c) = Σ_j  sp( Σ_k x(r, k) · w0(k, j) + b0(j) ) · w1(j, c)  +  b1(c),
      sp(h)     = ( max(100·h, 0) + log(1 + exp(-|100·h - 0|)) ) / 100,

  the overflow-free form of log(1 + exp(100·h)) / 100 that both programs spell out, guarded by the test
  "δ ≠ δ" (with δ = 100·h - 0) that selects 100·h + 0 instead; on the extended reals no number differs from
  itself, and the guard is kept here exactly as written, never evaluated.  The two literals are the words
  both programs print: 100 and 0 in single precision.  One row of x, the weights and the biases enter as plain
  functions of their coordinates, so the same function is read off a 2000-row chunk, a 16000-row block or the
  whole array.
-/
import Idealize.ShloMosaic.PureOps.Ideal
import Idealize.ShloMosaic.PureOps.Ideal.Laws
import Idealize.ShloMosaic.Lib.ValueIdx

noncomputable section

namespace Cert.MlpSpec

open Idealize.ShloMosaic
open scoped BigOperators

/-- The sharpness 100, as the single-precision word both programs print. -/
abbrev hundred : EReal := Ideal.ofBits .f32 0x42C80000#32
/-- Zero, as the single-precision word both programs print. -/
abbrev zero : EReal := Ideal.ofBits .f32 0x00000000#32

/-- The softplus of sharpness 100 in its overflow-free form, with the "δ ≠ δ" guard as written. -/
def softplus100 (h : EReal) : EReal :=
  Ideal.div
    (Scalar.select (Ideal.cmp .une (hundred * h - zero) (hundred * h - zero))
      (hundred * h + zero)
      (max (hundred * h) zero
        + Ideal.log1p (Ideal.exp (-(max (hundred * h - zero) (-(hundred * h - zero)))))))
    hundred

/-- The same with the exponent written 0 - |δ| and the guard as the ordered "δ ≠ δ": subtracting from zero is
    negation on every extended real, and the ordered and unordered inequality tests are one test where nothing is
    unordered. -/
theorem softplus100_of_zero_sub (h : EReal) :
    Ideal.div
      (Scalar.select (Ideal.cmp .one (hundred * h - zero) (hundred * h - zero))
        (hundred * h + zero)
        (max (hundred * h) zero
          + Ideal.log1p (Ideal.exp (zero - (max (hundred * h - zero) (-(hundred * h - zero)))))))
      hundred
      = softplus100 h := by
  unfold softplus100
  have hz : ∀ a : EReal, zero - a = -a := fun a => by
    show Ideal.ofBits .f32 0x00000000#32 - a = -a
    rw [Ideal.ofBits_zero_f32, sub_eq_add_neg, zero_add]
  rw [hz]
  rfl

/-- One entry of the perceptron's output from one row of the input, the first layer's weights and biases, one
    column of the second layer's weights and that column's bias. -/
def mlpOut (x : Fin 35 → EReal) (w0 : Fin 35 → Fin 64 → EReal) (b0 : Fin 64 → EReal) (w1 : Fin 64 → EReal)
    (b1 : EReal) : EReal :=
  (∑ j : Fin 64, softplus100 ((∑ k : Fin 35, x k * w0 k j) + b0 j) * w1 j) + b1

/-- The whole result: entry (r, c) is the perceptron's output for row r of the N × 35 input and column c, from the
    transposed weights (35 × 64 and 64 × 13) and the two bias vectors. -/
def mlpArray {N : ℕ} (x : (⟨2, ![N, 35]⟩ : Shape).Idx → EReal) (w0t : (⟨2, ![35, 64]⟩ : Shape).Idx → EReal)
    (b0 : (⟨1, ![64]⟩ : Shape).Idx → EReal) (w1t : (⟨2, ![64, 13]⟩ : Shape).Idx → EReal) (b1 : (⟨1, ![13]⟩ : Shape).Idx → EReal) :
    (⟨2, ![N, 13]⟩ : Shape).Idx → EReal :=
  fun i => mlpOut (fun k => x (ValueIdx.ix2 (i 0) k)) (fun k j => w0t (ValueIdx.ix2 k j)) (fun j => b0 (ValueIdx.ix1 j))
    (fun j => w1t (ValueIdx.ix2 j (i 1))) (b1 (ValueIdx.ix1 (i 1)))

end Cert.MlpSpec

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.KernelPayload.lean ====
/-
  One chunk of the kernel's body at an entry.  The body's arithmetic for a 2000-row chunk is three stages: the
  first layer (the chunk times the 35 × 64 weights into a zero accumulator, plus the bias row broadcast down the
  rows), the softplus of sharpness 100 applied entry by entry (its exponent written 0 - |δ|), and the second
  layer (times the 64 × 13 weights, plus the bias row).  Changes of float format are the identity on the
  extended reals, a cast of a shape to itself is the identity, and a product into a zero accumulator at (a, b) is
  the sum over the contracted coordinate; so entry (a, b) of the chunk's result is the perceptron's output for
  row a of the chunk and column b.
-/
import proofs.«178618_j103079215178_2_alg».proof.Proof.Gen.KernelIdeal.Skeleton
import proofs.«178618_j103079215178_2_alg».proof.Proof.MlpSpec
import proofs.«178618_j103079215178_2_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.MlpSpec
open scoped BigOperators

/-! ## The dimension numbers of the two products -/

abbrev D1 : DotDims S2000x35 S35x64 S2000x64 := dot_S2000x35_S35x64_S2000x64_1_0_0_1_n_n
abbrev D2 : DotDims S2000x64 S64x13 S2000x13 := dot_S2000x64_S64x13_S2000x13_1_0_0_1_n_n

theorem D1_L0 (j : S2000x64.Idx) (q : D1.contr.Idx) : (D1.lhsIdx j q 0).val = (j 0).val := by
  unfold DotDims.lhsIdx
  rw [dif_neg (show ¬(0 : Fin S2000x35.rank) ∈ D1.lhsBatch by decide), dif_pos (show (0 : Fin S2000x35.rank) ∈ D1.lhsNonContracting by decide)]
  rfl
theorem D1_R1 (j : S2000x64.Idx) (q : D1.contr.Idx) : (D1.rhsIdx j q 1).val = (j 1).val := by
  unfold DotDims.rhsIdx
  rw [dif_neg (show ¬(1 : Fin S35x64.rank) ∈ D1.rhsBatch by decide), dif_pos (show (1 : Fin S35x64.rank) ∈ D1.rhsNonContracting by decide)]
  rfl
theorem D2_L0 (j : S2000x13.Idx) (q : D2.contr.Idx) : (D2.lhsIdx j q 0).val = (j 0).val := by
  unfold DotDims.lhsIdx
  rw [dif_neg (show ¬(0 : Fin S2000x64.rank) ∈ D2.lhsBatch by decide), dif_pos (show (0 : Fin S2000x64.rank) ∈ D2.lhsNonContracting by decide)]
  rfl
theorem D2_R1 (j : S2000x13.Idx) (q : D2.contr.Idx) : (D2.rhsIdx j q 1).val = (j 1).val := by
  unfold DotDims.rhsIdx
  rw [dif_neg (show ¬(1 : Fin S64x13.rank) ∈ D2.rhsBatch by decide), dif_pos (show (1 : Fin S64x13.rank) ∈ D2.rhsNonContracting by decide)]
  rfl

/-! ## The three stages -/

/-- The first layer before the activation: the chunk times the weights, plus the bias row. -/
def pre1 (v0 : Vec Ideal S35x64 .bf16) (v4 : Vec Ideal S1x64 .f32) (v12 : Vec Ideal S2000x35 .f32) : FVec Ideal S2000x64 .f32 :=
  addf (matmul D1 none (truncf .bf16 v12 bitsLt_bf16_f32) (shapeCast S35x64 v0 shapeCasts_S35x64_S35x64 : FVec Ideal S35x64 .bf16) (constant S2000x64 .f32 0x00000000#32))
    (broadcastTo S2000x64 (shapeCast S1x64 v4 shapeCasts_S1x64_S1x64 : FVec Ideal S1x64 .f32) broadcasts_S1x64_S2000x64)

/-- The activation, entry by entry, as the body spells it. -/
def hidden (p : FVec Ideal S2000x64 .f32) : FVec Ideal S2000x64 .f32 :=
  have cst_9 : Ideal .f32 := Scalar.ofBits .f32 0x42C80000#32
  have v18 : FVec Ideal S2000x64 .f32 := mulf (broadcast S2000x64 cst_9) p
  have cst_10 : Ideal .f32 := Scalar.ofBits .f32 0x00000000#32
  have v22 : FVec Ideal S2000x64 .f32 := subf v18 (broadcast S2000x64 cst_10)
  divf (select (cmpf .one v22 v22) (addf v18 (broadcast S2000x64 cst_10))
      (addf (maximumf v18 (broadcast S2000x64 cst_10))
        (log1p (exp (subf (broadcast S2000x64 (Scalar.ofBits .f32 0x00000000#32 : Ideal .f32)) (absf v22))))))
    (broadcast S2000x64 (Scalar.ofBits .f32 0x42C80000#32 : Ideal .f32))

/-- The second layer: the activations times the weights, plus the bias row. -/
def out2 (v2 : Vec Ideal S64x13 .bf16) (v6 : Vec Ideal S1x13 .f32) (h : FVec Ideal S2000x64 .f32) : FVec Ideal S2000x13 .f32 :=
  addf (matmul D2 none (truncf .bf16 h bitsLt_bf16_f32) (shapeCast S64x13 v2 shapeCasts_S64x13_S64x13 : FVec Ideal S64x13 .bf16) (constant S2000x13 .f32 0x00000000#32))
    (broadcastTo S2000x13 (shapeCast S1x13 v6 shapeCasts_S1x13_S1x13 : FVec Ideal S1x13 .f32) broadcasts_S1x13_S2000x13)

/-- The chunk's payload is the three stages composed. -/
theorem pay_eq (v0 : Vec Ideal S35x64 .bf16) (v2 : Vec Ideal S64x13 .bf16) (v4 : Vec Ideal S1x64 .f32) (v6 : Vec Ideal S1x13 .f32)
    (v12 : Vec Ideal S2000x35 .f32) :
    k0_pay1 (F := Ideal) v0 v2 v4 v6 v12 = out2 v2 v6 (hidden (pre1 v0 v4 v12)) := rfl

/-! ## Each stage at an entry -/

theorem pre1_apply (v0 : Vec Ideal S35x64 .bf16) (v4 : Vec Ideal S1x64 .f32) (v12 : Vec Ideal S2000x35 .f32) (a : Fin 2000) (j : Fin 64) :
    pre1 v0 v4 v12 (ix2 a j) = (∑ k : Fin 35, v12 (ix2 a k) * v0 (ix2 k j)) + v4 (ix2 (0 : Fin 1) j) := by
  unfold pre1
  show (_ : EReal) + _ = _
  refine congrArg₂ (· + ·) ?_ ?_
  · refine (Cert.LibPlainDot.matmul_zero_apply (M := 2000) (K := 35) (N := 64) D1 rfl rfl rfl rfl D1_L0 D1_R1 none _ _ a j).trans ?_
    rw [shapeCast_self]
    rfl
  · rw [shapeCast_self]
    exact broadcastTo_1b_ab_apply v4 broadcasts_S1x64_S2000x64 a j

theorem hidden_apply (p : FVec Ideal S2000x64 .f32) (i : S2000x64.Idx) : hidden p i = softplus100 (p i) :=
  softplus100_of_zero_sub (p i)

theorem out2_apply (v2 : Vec Ideal S64x13 .bf16) (v6 : Vec Ideal S1x13 .f32) (h : FVec Ideal S2000x64 .f32) (a : Fin 2000) (b : Fin 13) :
    out2 v2 v6 h (ix2 a b) = (∑ j : Fin 64, h (ix2 a j) * v2 (ix2 j b)) + v6 (ix2 (0 : Fin 1) b) := by
  unfold out2
  show (_ : EReal) + _ = _
  refine congrArg₂ (· + ·) ?_ ?_
  · refine (Cert.LibPlainDot.matmul_zero_apply (M := 2000) (K := 64) (N := 13) D2 rfl rfl rfl rfl D2_L0 D2_R1 none _ _ a b).trans ?_
    rw [shapeCast_self]
    rfl
  · rw [shapeCast_self]
    exact broadcastTo_1b_ab_apply v6 broadcasts_S1x13_S2000x13 a b

/-- Entry (a, b) of the chunk's result is the perceptron's output for the chunk's row a and column b. -/
theorem pay_apply (v0 : Vec Ideal S35x64 .bf16) (v2 : Vec Ideal S64x13 .bf16) (v4 : Vec Ideal S1x64 .f32) (v6 : Vec Ideal S1x13 .f32)
    (v12 : Vec Ideal S2000x35 .f32) (a : Fin 2000) (b : Fin 13) :
    k0_pay1 (F := Ideal) v0 v2 v4 v6 v12 (ix2 a b)
      = mlpOut (fun k => v12 (ix2 a k)) (fun k j => v0 (ix2 k j)) (fun j => v4 (ix2 (0 : Fin 1) j)) (fun j => v2 (ix2 j b))
          (v6 (ix2 (0 : Fin 1) b)) := by
  rw [pay_eq, out2_apply]
  unfold mlpOut
  refine congrArg₂ (· + ·) (Finset.sum_congr rfl fun j _ => ?_) rfl
  rw [hidden_apply, pre1_apply]

end Cert.KernelIdeal.Payload

end
-- ==== Proof.KernelBlock.lean ====
/-
  What the body leaves in one 16000 × 13 output block, entry by entry, on the extended reals.  Entry (r, c) of the
  block is the perceptron's output for row r of the 16000 × 35 input block and column c: the chunk that holds row r
  (trip k = r / 2000) stores at its rows the payload of the same rows of the input block, and the payload at a row
  depends on that row alone.  The eight stores tile the block, so the block is this one function of its index.
-/
import proofs.«178618_j103079215178_2_alg».proof.Proof.KernelPieces
import proofs.«178618_j103079215178_2_alg».proof.Proof.KernelPayload

set_option maxRecDepth 16384

noncomputable section

namespace Cert.KernelIdeal.Block

open Cert.KernelIdeal Cert.KernelIdeal.Gen Cert.KernelIdeal.Pieces Cert.KernelIdeal.Payload
open Idealize.ShloMosaic Idealize.ShloMosaic.TcCoe Idealize.ShloMosaic.ValueIdx Idealize.SL.Sem Cert.MlpSpec

/-- The perceptron's output for row r of an input block and column c. -/
def entryOut {R : ℕ} (x0 : (⟨2, ![R, 35]⟩ : Shape).Idx → EReal) (x1 : Vec Ideal S35x64 .bf16) (x2 : Vec Ideal S1x64 .f32)
    (x3 : Vec Ideal S64x13 .bf16) (x4 : Vec Ideal S1x13 .f32) (r : Fin R) (cc : Fin 13) : EReal :=
  mlpOut (fun k => x0 (ix2 r k)) (fun k j => x1 (ix2 k j)) (fun j => x2 (ix2 (0 : Fin 1) j)) (fun j => x3 (ix2 j cc))
    (x4 (ix2 (0 : Fin 1) cc))

/-- The 16000 × 13 block, entry by entry. -/
def blockOut (x0 : Vec Ideal S16000x35 .f32) (x1 : Vec Ideal S35x64 .bf16) (x2 : Vec Ideal S1x64 .f32)
    (x3 : Vec Ideal S64x13 .bf16) (x4 : Vec Ideal S1x13 .f32) : S16000x13.Idx → EReal :=
  fun y => entryOut (R := 16000) x0 x1 x2 x3 x4 (y 0) (y 1)

/-- Trip k's store agrees with the block's function on the rows it writes. -/
theorem piece_apply (arg1 : Memref sig .tc .vmem S16000x35 .f32) (harg1 : arg1.IsWhole)
    (x0 : Vec Ideal S16000x35 .f32) (x1 : Vec Ideal S35x64 .bf16) (x2 : Vec Ideal S1x64 .f32) (x3 : Vec Ideal S64x13 .bf16)
    (x4 : Vec Ideal S1x13 .f32) (k : Fin k0_t1_loop.trips) (x : S2000x13.Idx) :
    k0_pay1 (F := Ideal) x1 x3 x2 x4
        (View.readAt (Elt Ideal) arg1.view (Rect.unit (s := S16000x35) (k0_off1 k) S2000x35.size (k0_off1_inb k)).toLoadRect (harg1.unread x0)) x
      = blockOut x0 x1 x2 x3 x4 ((Rect.unit (s := S16000x13) (k0_off2 k) S2000x13.size (k0_off2_inb k)).emb x) := by
  obtain ⟨a, b, rfl⟩ : ∃ (a : Fin 2000) (b : Fin 13), x = ix2 a b := ⟨x 0, x 1, eq_ix2 x⟩
  refine (pay_apply x1 x3 x2 x4 _ a b).trans ?_
  have h1 : ((Rect.unit (s := S16000x13) (k0_off2 k) S2000x13.size (k0_off2_inb k)).emb (ix2 a b)) 1 = b := by
    apply Fin.ext
    show k0_off2 k 1 + 1 * b.val = b.val
    rw [k0_off2_eq k]
    show 0 + 1 * b.val = b.val
    omega
  have hW : ∀ k' : Fin 35,
      View.readAt (Elt Ideal) arg1.view (Rect.unit (s := S16000x35) (k0_off1 k) S2000x35.size (k0_off1_inb k)).toLoadRect (harg1.unread x0) (ix2 a k')
        = x0 (ix2 (((Rect.unit (s := S16000x13) (k0_off2 k) S2000x13.size (k0_off2_inb k)).emb (ix2 a b)) 0) k') := by
    intro k'
    rw [View.readAt_eq_ld, harg1.read_unread]
    show x0 _ = x0 _
    refine congrArg x0 (funext fun d => Fin.ext ?_)
    match d with
    | ⟨0, _⟩ =>
      show k0_off1 k 0 + 1 * a.val = k0_off2 k 0 + 1 * a.val
      rw [k0_off1_eq k, k0_off2_eq k]
    | ⟨1, _⟩ =>
      show k0_off1 k 1 + 1 * k'.val = k'.val
      rw [k0_off1_eq k]
      show 0 + 1 * k'.val = k'.val
      omega
  show _ = entryOut (R := 16000) x0 x1 x2 x3 x4 _ _
  rw [h1]
  unfold entryOut
  exact congrArg (fun f => mlpOut f _ _ _ _) (funext hW)

/-- The block the body leaves is that function of its index. -/
theorem out_apply (c : Dev nD) (i : grid0.Coords) (arg1 : Memref sig .tc .vmem S16000x35 .f32) (harg1 : arg1.IsWhole) (arg2 : Memref sig .tc .vmem S35x64 .bf16) (harg2 : arg2.IsWhole) (arg3 : Memref sig .tc .vmem S1x64 .f32) (harg3 : arg3.IsWhole) (arg4 : Memref sig .tc .vmem S64x13 .bf16) (harg4 : arg4.IsWhole) (arg5 : Memref sig .tc .vmem S1x13 .f32) (harg5 : arg5.IsWhole) (arg6 : Memref sig .tc .vmem S16000x13 .f32) (harg6 : arg6.IsWhole)
    (x0 : Vec Ideal S16000x35 .f32) (x1 : Vec Ideal S35x64 .bf16) (x2 : Vec Ideal S1x64 .f32) (x3 : Vec Ideal S64x13 .bf16) (x4 : Vec Ideal S1x13 .f32) :
    out0_A_5 (F := Ideal) c i arg1 harg1 arg2 harg2 arg3 harg3 arg4 harg4 arg5 harg5 arg6 harg6 x0 x1 x2 x3 x4 = blockOut x0 x1 x2 x3 x4 := by
  unfold out0_A_5
  rw [View.read_writes_eq_canon _ _ _ (cover0_A_5 c i arg1 harg1 arg2 harg2 arg3 harg3 arg4 harg4 arg5 harg5 arg6 harg6 x0 x1 x2 x3 x4)]
  funext y
  refine View.canon_apply_of_pieces (blockOut x0 x1 x2 x3 x4) _ ?_ y (cover0_A_5 c i arg1 harg1 arg2 harg2 arg3 harg3 arg4 harg4 arg5 harg5 arg6 harg6 x0 x1 x2 x3 x4 y)
  intro p hp x
  obtain ⟨k, rfl⟩ := mem_run c i arg1 harg1 arg2 harg2 arg3 harg3 arg4 harg4 arg5 harg5 arg6 harg6 x0 x1 x2 x3 x4 p hp
  exact piece_apply arg1 harg1 x0 x1 x2 x3 x4 k x

end Cert.KernelIdeal.Block

end
-- ==== Proof.KernelArray.lean ====
/-
  From blocks to the whole result.  Grid point t (of 125) stages rows 16000·t … 16000·t + 15999 of the input and
  writes the same rows of the result; the transposed weights and the bias rows are staged whole at every point.
  What point t writes back is therefore block t of ONE function of the arrays the region finds — entry (r, c) of
  the result is the perceptron's output for row r of the input and column c — and since the 125 row blocks cover
  all 2000000 rows, the result array ends as that function.
-/
import proofs.«178618_j103079215178_2_alg».proof.Proof.KernelBlock
import proofs.«178618_j103079215178_2_alg».proof.Proof.Gen.KernelIdeal.Value

set_option maxRecDepth 16384

noncomputable section

namespace Cert.KernelIdeal.WholeArray

open Cert.KernelIdeal Cert.KernelIdeal.Gen Cert.KernelIdeal.Block
open Idealize.ShloMosaic Idealize.ShloMosaic.TcCoe Idealize.ShloMosaic.ValueIdx Idealize.SL.Sem Cert.MlpSpec
open Idealize.ShloMosaic.Pipeline (Dat)

variable (m : (ℓ : Loc nD τ sig) → Buf (Elt Ideal) ℓ) (ρ : Dev nD → PrngReg)

/-- The whole 2000000 × 13 result, entry by entry, from the arrays the region finds. -/
def arrayOut (X : S2000000x35.Idx → EReal) (x1 : Vec Ideal S35x64 .bf16) (x2 : Vec Ideal S1x64 .f32)
    (x3 : Vec Ideal S64x13 .bf16) (x4 : Vec Ideal S1x13 .f32) : S2000000x13.Idx → EReal :=
  fun i => entryOut (R := 2000000) X x1 x2 x3 x4 (i 0) (i 1)

/-- The index maps over the 125 grid points: the input and output row blocks move together, the four resident
    operands stay at block (0, 0), and the output's column block is 0. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 124 :=
  (by decide +kernel : ∀ t : Fin grid0.N, _)

/-- Every row block of the result is some grid point's. -/
theorem idx_onto : ∀ q : Fin 125, ∃ t : Fin cfg0.N, win0_5.index t = ![q.val, 0] :=
  (by decide +kernel : ∀ q : Fin 125, ∃ t : Fin grid0.N, win0_5.index t = ![q.val, 0])

/-- Two entries of the perceptron agree when the row read, the weights and biases, and the column agree. -/
theorem entryOut_congr {R R' : ℕ} (x0 : (⟨2, ![R, 35]⟩ : Shape).Idx → EReal) (X : (⟨2, ![R', 35]⟩ : Shape).Idx → EReal)
    (x1 x1' : Vec Ideal S35x64 .bf16) (x2 x2' : Vec Ideal S1x64 .f32) (x3 x3' : Vec Ideal S64x13 .bf16) (x4 x4' : Vec Ideal S1x13 .f32)
    (r : Fin R) (r' : Fin R') (cc cc' : Fin 13)
    (h0 : ∀ k, x0 (ix2 r k) = X (ix2 r' k)) (h1 : ∀ k j, x1 (ix2 k j) = x1' (ix2 k j))
    (h2 : ∀ j, x2 (ix2 (0 : Fin 1) j) = x2' (ix2 (0 : Fin 1) j)) (h3 : ∀ j, x3 (ix2 j cc) = x3' (ix2 j cc'))
    (h4 : x4 (ix2 (0 : Fin 1) cc) = x4' (ix2 (0 : Fin 1) cc')) :
    entryOut x0 x1 x2 x3 x4 r cc = entryOut X x1' x2' x3' x4' r' cc' := by
  unfold entryOut
  simp only [h0, h1, h2, h3, h4]

/-- What grid point t writes back is block t of the whole-array function: row r of the point's input block is row
    16000·t + r of the input array, and the four resident blocks are their whole arrays. -/
theorem flushed_eq (c : Dev nD) (t : Fin cfg0.N) :
    (dats m 0 c).flushed 5 t = ((cfg0.win 5).blk t).view.read (Elt Ideal)
      (arrayOut (V m c main_arg0) (V m c main_v11) (V m c main_v14) (V m c main_v13) (V m c main_v15)) := by
  rw [Value.flushed5_A]
  rw [out_apply c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t)]
  obtain ⟨e0, e1, e2, e3, e4, e5, e6, e7, e8, e9, e10, e11⟩ := idx_facts t
  funext j
  show entryOut (R := 16000) (iblk m c 0 t) (iblk m c 1 t) (iblk m c 2 t) (iblk m c 3 t) (iblk m c 4 t)
        ((cfg0.win 5).xinj (grid0.coords t) j 0) ((cfg0.win 5).xinj (grid0.coords t) j 1)
      = entryOut (R := 2000000) (V m c main_arg0) (V m c main_v11) (V m c main_v14) (V m c main_v13) (V m c main_v15)
        ((((cfg0.win 5).blk t).view.emb j) 0) ((((cfg0.win 5).blk t).view.emb j) 1)
  have hj0 : (j 0).val < 16000 := (j 0).isLt
  have hj1 : (j 1).val < 13 := (j 1).isLt
  refine entryOut_congr _ _ _ _ _ _ _ _ _ _ _ _ _ _ ?_ ?_ ?_ ?_ ?_
  · intro k
    show V m c main_arg0 (((cfg0.win 0).blk t).view.emb (ix2 ((cfg0.win 5).xinj (grid0.coords t) j 0) k)) = V m c main_arg0 _
    refine congrArg (V m c main_arg0) (funext fun a => Fin.ext ?_)
    match a with
    | ⟨0, _⟩ => show win0_0.index t (0 : Fin 2) * 16000 + 1 * (j 0).val = win0_5.index t (0 : Fin 2) * 16000 + 1 * (j 0).val; omega
    | ⟨1, _⟩ => show win0_0.index t (1 : Fin 2) * 35 + 1 * k.val = k.val; omega
  · intro k j'
    show V m c main_v11 (((cfg0.win 1).blk t).view.emb (ix2 k j')) = V m c main_v11 _
    refine congrArg (V m c main_v11) (funext fun a => Fin.ext ?_)
    match a with
    | ⟨0, _⟩ => show win0_1.index t (0 : Fin 2) * 35 + 1 * k.val = k.val; omega
    | ⟨1, _⟩ => show win0_1.index t (1 : Fin 2) * 64 + 1 * j'.val = j'.val; omega
  · intro j'
    show V m c main_v14 (((cfg0.win 2).blk t).view.emb (ix2 (0 : Fin 1) j')) = V m c main_v14 _
    refine congrArg (V m c main_v14) (funext fun a => Fin.ext ?_)
    match a with
    | ⟨0, _⟩ => show win0_2.index t (0 : Fin 2) * 1 + 1 * 0 = 0; omega
    | ⟨1, _⟩ => show win0_2.index t (1 : Fin 2) * 64 + 1 * j'.val = j'.val; omega
  · intro j'
    show V m c main_v13 (((cfg0.win 3).blk t).view.emb (ix2 j' ((cfg0.win 5).xinj (grid0.coords t) j 1))) = V m c main_v13 _
    refine congrArg (V m c main_v13) (funext fun a => Fin.ext ?_)
    match a with
    | ⟨0, _⟩ => show win0_3.index t (0 : Fin 2) * 64 + 1 * j'.val = j'.val; omega
    | ⟨1, _⟩ => show win0_3.index t (1 : Fin 2) * 13 + 1 * (j 1).val = win0_5.index t (1 : Fin 2) * 13 + 1 * (j 1).val; omega
  · show V m c main_v15 (((cfg0.win 4).blk t).view.emb (ix2 (0 : Fin 1) ((cfg0.win 5).xinj (grid0.coords t) j 1))) = V m c main_v15 _
    refine congrArg (V m c main_v15) (funext fun a => Fin.ext ?_)
    match a with
    | ⟨0, _⟩ => show win0_4.index t (0 : Fin 2) * 1 + 1 * 0 = 0; omega
    | ⟨1, _⟩ => show win0_4.index t (1 : Fin 2) * 13 + 1 * (j 1).val = win0_5.index t (1 : Fin 2) * 13 + 1 * (j 1).val; omega

/-- An index of the result is in point t's block when each coordinate is in the block's range on its axis. -/
theorem mem_blk (t : Fin cfg0.N) (i : S2000000x13.Idx) :
    i ∈ ((cfg0.win 5).blk t).view.set ↔ ∀ a : Fin 2, win0_5.index t a * S16000x13.size a ≤ (i a).val ∧ (i a).val < win0_5.index t a * S16000x13.size a + S16000x13.size a := by
  show i ∈ ((View.whole main_v16).slice (win0_5.rect t)).set ↔ _
  rw [View.set_slice_whole, Rect.mem_set_unit]
  exact Iff.rfl

/-- The 125 blocks of 16000 rows cover the 2000000 rows: row r is in the block of the point with row block r / 16000. -/
theorem cover (i : S2000000x13.Idx) : ∃ t : Fin cfg0.N, (cfg0.win 5).flush t = true ∧ i ∈ ((cfg0.win 5).blk t).view.set := by
  have hi0 : (i 0).val < 2000000 := (i 0).isLt
  have hi1 : (i 1).val < 13 := (i 1).isLt
  obtain ⟨t, ht⟩ := idx_onto ⟨(i 0).val / 16000, by omega⟩
  have q0 : win0_5.index t (0 : Fin 2) = (i 0).val / 16000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 16000 ≤ (i 0).val ∧ (i 0).val < win0_5.index t (0 : Fin 2) * 16000 + 16000; omega
  | ⟨1, _⟩ => show win0_5.index t (1 : Fin 2) * 13 ≤ (i 1).val ∧ (i 1).val < win0_5.index t (1 : Fin 2) * 13 + 13; omega

/-- The result array after the run is the whole-array function of the arrays the region finds. -/
theorem final (c : Dev nD) : (dats m 0 c).arrAt 5 cfg0.N
    = arrayOut (V m c main_arg0) (V m c main_v11) (V m c main_v14) (V m c main_v13) (V m c main_v15) :=
  (dats m 0 c).arrAt_eq_of_cover 5 _ (fun t _ => flushed_eq m c t) cover

end Cert.KernelIdeal.WholeArray

end
-- ==== Proof.KernelHost.lean ====
/-
  The arrays the region finds.  Before the region the program computes, on the host, the two weight matrices
  normalised row by row (each row of v scaled by its gain and divided by its Euclidean norm), transposes them,
  changes their float format (the identity on the extended reals), and views each bias vector as a one-row
  matrix.  The normalised, transposed weights are the very terms the reference computes from the same arguments;
  the one-row biases read, in column j, the bias vector at j.
-/
import proofs.«178618_j103079215178_2_alg».proof.Proof.Gen.KernelIdeal.Frame
import proofs.«178618_j103079215178_2_alg».proof.Proof.Gen.ReferenceIdeal.Read
import Idealize.ShloMosaic.Lib.StableHlo.Run
import Idealize.ShloMosaic.Lib.ValueLayout
import Idealize.ShloMosaic.PureOps.Ideal

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The first layer's weights as staged: the reference's normalised, transposed weights of the same arguments. -/
theorem V_w0 (c : Dev nD) : (V m c main_v11 : S35x64.Idx → EReal)
    = Cert.ReferenceIdeal.Read.val_main_v10 (F := Ideal) (m ((c : Thread nD τ).loc main_arg1)) (m ((c : Thread nD τ).loc main_arg2)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The second layer's weights as staged: likewise. -/
theorem V_w1 (c : Dev nD) : (V m c main_v13 : S64x13.Idx → EReal)
    = Cert.ReferenceIdeal.Read.val_main_v20 (F := Ideal) (m ((c : Thread nD τ).loc main_arg4)) (m ((c : Thread nD τ).loc main_arg5)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The first bias as staged, a one-row matrix, reads the bias vector. -/
theorem V_b0 (c : Dev nD) (j : Fin 64) : (V m c main_v14 : S1x64.Idx → EReal) (ix2 (0 : Fin 1) j) = m ((c : Thread nD τ).loc main_arg3) (ix1 j) := by
  have e : (V m c main_v14 : S1x64.Idx → EReal) = shapeCast S1x64 (m ((c : Thread nD τ).loc main_arg3)) shapeCasts_S64_S1x64 := by
    dsimp only [Gen.V]
    simp only [Gen.hostOps0, Gen.hostOps0_1, Gen.hostOps0_2, Gen.hostOps0_3, Gen.hostOps0_4, List.flatten_cons, List.flatten_nil,
    List.append_nil, List.cons_append, List.nil_append]
    after_results
    rfl
  rw [e]
  exact shapeCast_a_1a_apply _ _ (0 : Fin 1) j

/-- The second bias as staged, likewise. -/
theorem V_b1 (c : Dev nD) (j : Fin 13) : (V m c main_v15 : S1x13.Idx → EReal) (ix2 (0 : Fin 1) j) = m ((c : Thread nD τ).loc main_arg6) (ix1 j) := by
  have e : (V m c main_v15 : S1x13.Idx → EReal) = shapeCast S1x13 (m ((c : Thread nD τ).loc main_arg6)) shapeCasts_S13_S1x13 := by
    dsimp only [Gen.V]
    simp only [Gen.hostOps0, Gen.hostOps0_1, Gen.hostOps0_2, Gen.hostOps0_3, Gen.hostOps0_4, List.flatten_cons, List.flatten_nil,
    List.append_nil, List.cons_append, List.nil_append]
    after_results
    rfl
  rw [e]
  exact shapeCast_a_1a_apply _ _ (0 : Fin 1) j

end Cert.KernelIdeal.HostSide

end
-- ==== Proof.KernelRun.lean ====
/-
  The kernel's run, read.  The result array ends as the perceptron of the ARGUMENTS: the input array is staged as
  launched, the staged weights are the reference's normalised and transposed weights of the same arguments, and the
  staged one-row biases read the bias vectors.
-/
import proofs.«178618_j103079215178_2_alg».proof.Proof.KernelArray
import proofs.«178618_j103079215178_2_alg».proof.Proof.KernelHost

set_option maxRecDepth 16384

noncomputable section

namespace Cert.KernelIdeal.Final

open Cert.KernelIdeal Cert.KernelIdeal.Gen Cert.KernelIdeal.Block Cert.KernelIdeal.WholeArray Cert.KernelIdeal.HostSide
open Idealize.ShloMosaic Idealize.ShloMosaic.TcCoe Idealize.ShloMosaic.ValueIdx Idealize.SL.Sem Cert.MlpSpec

variable (m : (ℓ : Loc nD τ sig) → Buf (Elt Ideal) ℓ) (ρ : Dev nD → PrngReg)

/-- The perceptron of the arguments, with the weights normalised and transposed as the reference computes them. -/
abbrev result (c : Dev nD) : S2000000x13.Idx → EReal :=
  mlpArray (N := 2000000) (m ((c : Thread nD τ).loc main_arg0))
    (Cert.ReferenceIdeal.Read.val_main_v10 (F := Ideal) (m ((c : Thread nD τ).loc main_arg1)) (m ((c : Thread nD τ).loc main_arg2)))
    (m ((c : Thread nD τ).loc main_arg3))
    (Cert.ReferenceIdeal.Read.val_main_v20 (F := Ideal) (m ((c : Thread nD τ).loc main_arg4)) (m ((c : Thread nD τ).loc main_arg5)))
    (m ((c : Thread nD τ).loc main_arg6))

/-- The whole-array function of the arrays the region finds is the perceptron of the arguments. -/
theorem arrayOut_eq (c : Dev nD) :
    arrayOut (V m c main_arg0) (V m c main_v11) (V m c main_v14) (V m c main_v13) (V m c main_v15) = result m c := by
  funext i
  show mlpOut (fun k => V m c main_arg0 (ix2 (i 0) k)) (fun k j => V m c main_v11 (ix2 k j)) (fun j => V m c main_v14 (ix2 (0 : Fin 1) j))
      (fun j => V m c main_v13 (ix2 j (i 1))) (V m c main_v15 (ix2 (0 : Fin 1) (i 1))) = _
  rw [V_main_arg0 m c, V_w0 m c, V_w1 m c]
  simp only [V_b0 m c]
  exact congrArg (mlpOut _ _ _ _) (V_b1 m c (i 1))

/-- Every weakly fair execution of the kernel's program terminates with the result array at the perceptron of the
    arguments and the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (arrayOut_eq m c)), (h c).2⟩)
    (Cert.KernelIdeal.Value.run_blocks m ρ)

end Cert.KernelIdeal.Final

end
-- ==== Proof.RefValue.lean ====
/-
  The reference's result, entry by entry.  Its hidden layer is the input times the normalised, transposed first
  weights plus the first bias (broadcast twice), through the softplus of sharpness 100 spelt with a negation; its
  result is the hidden layer times the normalised, transposed second weights plus the second bias.  Read at (r, c)
  that is the perceptron's output for row r and column c.
-/
import proofs.«178618_j103079215178_2_alg».proof.Proof.Gen.ReferenceIdeal.Read
import proofs.«178618_j103079215178_2_alg».proof.Proof.MlpSpec

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.MlpSpec
open scoped BigOperators

/-- The reference's activations are the softplus of sharpness 100 of its first layer, entry by entry. -/
theorem hidden_apply (x0 : (⟨S2000000x35, .f32⟩ : BufTy).Contents (Elt Ideal)) (x1 : (⟨S64x35, .f32⟩ : BufTy).Contents (Elt Ideal)) (x2 : (⟨S64x1, .f32⟩ : BufTy).Contents (Elt Ideal)) (x3 : (⟨S64, .f32⟩ : BufTy).Contents (Elt Ideal)) (p : S2000000x64.Idx) :
    val_main_v19 (F := Ideal) x0 x1 x2 x3 p = softplus100 (val_main_v14 (F := Ideal) x0 x1 x2 x3 p) := by
  simp only [val_main_v19_apply, val_main_v17_apply, val_main_call2_v4_apply, val_main_call2_v6_apply, val_main_call2_v11_apply,
    val_main_call2_v1_apply, val_main_call2_v10_apply, val_main_call2_v9_apply, val_main_call2_v8_apply, val_main_call2_v7_apply,
    val_main_call2_v3_apply, val_main_v16_apply, val_main_v15_apply, val_main_v18_apply, val_main_call2_v0_apply,
    val_main_call2_v2_apply, val_main_call2_v5_apply]
  rfl

/-- The reference's result is the perceptron of its arguments, with the weights normalised and transposed as it
    computes them. -/
theorem result_eq (x0 : (⟨S2000000x35, .f32⟩ : BufTy).Contents (Elt Ideal)) (x1 : (⟨S64x35, .f32⟩ : BufTy).Contents (Elt Ideal)) (x2 : (⟨S64x1, .f32⟩ : BufTy).Contents (Elt Ideal)) (x3 : (⟨S64, .f32⟩ : BufTy).Contents (Elt Ideal)) (x4 : (⟨S13x64, .f32⟩ : BufTy).Contents (Elt Ideal)) (x5 : (⟨S13x1, .f32⟩ : BufTy).Contents (Elt Ideal)) (x6 : (⟨S13, .f32⟩ : BufTy).Contents (Elt Ideal)) :
    val_main_v24 (F := Ideal) x0 x1 x2 x3 x4 x5 x6
      = mlpArray (N := 2000000) x0 (val_main_v10 (F := Ideal) x1 x2) x3 (val_main_v20 (F := Ideal) x4 x5) x6 := by
  funext i
  rw [val_main_v24_apply, val_main_v21_apply, val_main_v23_apply, val_main_v22_apply]
  unfold mlpArray mlpOut
  show (_ : EReal) + _ = _
  refine congrArg₂ (· + ·) (Finset.sum_congr rfl fun j _ => ?_) (congrArg x6 ?_)
  · rw [hidden_apply, val_main_v14_apply, val_main_v11_apply, val_main_v13_apply, val_main_v12_apply]
    have er : ridx_main_v21 i j = ix2 j (i 1) := funext fun a => Fin.ext (by match a with | ⟨0, _⟩ => rfl | ⟨1, _⟩ => rfl)
    have el : ∀ k : Fin 35, lidx_main_v11 (lidx_main_v21 i j) k = ix2 (i 0) k := fun k =>
      funext fun a => Fin.ext (by match a with | ⟨0, _⟩ => rfl | ⟨1, _⟩ => rfl)
    have er' : ∀ k : Fin 35, ridx_main_v11 (lidx_main_v21 i j) k = ix2 k j := fun k =>
      funext fun a => Fin.ext (by match a with | ⟨0, _⟩ => rfl | ⟨1, _⟩ => rfl)
    have eb : idx_main_v12 (idx_main_v13 (lidx_main_v21 i j)) = ix1 j :=
      funext fun a => Fin.ext (by match a with | ⟨0, _⟩ => rfl)
    rw [er]
    simp only [el, er', eb]
    rfl
  · exact funext fun a => Fin.ext (by match a with | ⟨0, _⟩ => rfl)

end Cert.ReferenceIdeal.RefValue

end
-- ==== Proof.lean ====
/-
  A two-layer perceptron 35 → 64 → 13 over 2000000 rows, with weight-normalised layers (each row of a weight matrix
  scaled by its gain and divided by its Euclidean norm) and the softplus of sharpness 100 between them:

      out(r, c) = Σ_j  sp( Σ_k x(r, k) · w0(j, k) + b0(j) ) · w1(c, j)  +  b1(c).

  The kernel normalises and transposes the weights on the host, streams the rows through a grid of 125 blocks of 16000
  rows, and inside each block walks eight chunks of 2000 rows; the reference does the same arithmetic on whole arrays.
  On the extended reals both are one function of the arguments, entry by entry:

    * a change of float format is the identity, so the kernel's casts to a shorter format vanish;
    * a matrix product into a zero accumulator and the host's matrix product are the same sum over the contracted
      coordinate, and addition on the extended reals is commutative and associative, so neither the tiling by rows
      nor the order of the sum matters (no distributive law is used, hence no finiteness of the inputs);
    * the softplus is spelt max(z, 0) + log(1 + exp(-|z - 0|)) with z = 100·h, divided by 100; the kernel writes the
      exponent 0 - |z - 0| and the reference -|z - 0|, equal on every extended real; both guard it by the test
      "δ ≠ δ", one test on a linear order, kept as written;
    * the normalised, transposed weights are literally the same term of the arguments in both programs, and the
      kernel's one-row view of a bias vector reads the vector.

  The three frames are the generated frame runs (the reference's is its generated run with the result dropped);
  the idealization rewrote nothing, so its conjunct is trivial; the algebraic conjunct sets the kernel's run, read as
  that function, beside the reference's.
-/
import proofs.«178618_j103079215178_2_alg».proof.Defs
import proofs.«178618_j103079215178_2_alg».proof.Proof.Gen.Kernel
import proofs.«178618_j103079215178_2_alg».proof.Proof.Gen.Kernel.Skeleton
import proofs.«178618_j103079215178_2_alg».proof.Proof.Gen.Kernel.Loops
import proofs.«178618_j103079215178_2_alg».proof.Proof.Gen.Kernel.Launch
import proofs.«178618_j103079215178_2_alg».proof.Proof.Gen.Kernel.Points
import proofs.«178618_j103079215178_2_alg».proof.Proof.Gen.Kernel.Frame
import proofs.«178618_j103079215178_2_alg».proof.Proof.Gen.KernelIdeal
import proofs.«178618_j103079215178_2_alg».proof.Proof.Gen.KernelIdeal.Skeleton
import proofs.«178618_j103079215178_2_alg».proof.Proof.Gen.KernelIdeal.Loops
import proofs.«178618_j103079215178_2_alg».proof.Proof.Gen.KernelIdeal.Launch
import proofs.«178618_j103079215178_2_alg».proof.Proof.Gen.KernelIdeal.Points
import proofs.«178618_j103079215178_2_alg».proof.Proof.Gen.KernelIdeal.Frame
import proofs.«178618_j103079215178_2_alg».proof.Proof.Gen.ReferenceIdeal
import proofs.«178618_j103079215178_2_alg».proof.Proof.Gen.Pre_finite_inputs
import proofs.«178618_j103079215178_2_alg».proof.Proof.Gen.KernelIdeal.Value
import proofs.«178618_j103079215178_2_alg».proof.Proof.Gen.ReferenceIdeal.Run
import proofs.«178618_j103079215178_2_alg».proof.Proof.Gen.ReferenceIdeal.Read
import proofs.«178618_j103079215178_2_alg».proof.Proof.KernelRun
import proofs.«178618_j103079215178_2_alg».proof.Proof.RefValue
import Idealize.ShloMosaic.Adequacy
import Idealize.ShloMosaic.Init

noncomputable section

namespace Cert.Proof

open Idealize.ShloMosaic Idealize.SL.Sem

/-- The kernel's program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the perceptron of the arguments in their
    result arrays: the kernel by its run read entry by entry, the reference by its run read entry by entry. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v24_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
